-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x256x1024 : Shape := ⟨3, ![128, 256, 1024]⟩
abbrev S128x1024 : Shape := ⟨2, ![128, 1024]⟩
abbrev S128 : Shape := ⟨1, ![128]⟩
abbrev S_ : Shape := ⟨0, ![]⟩

class Facts : Prop where
  bcast_S_S128x256x1024 : S_.BroadcastsInDim S128x256x1024 (![] : Fin 0 → Fin S128x256x1024.rank)
  reducesTo_S128x256x1024_S_d0_1_2 : S128x256x1024.ReducesTo [0, 1, 2] S_
  h_S_ : 0 < S_.numel
  bcast_S_S128x1024 : S_.BroadcastsInDim S128x1024 (![] : Fin 0 → Fin S128x1024.rank)
  reducesTo_S128x1024_S_d0_1 : S128x1024.ReducesTo [0, 1] S_

variable [Facts]

def fn {F : FTy → Type} [FloatOps F] (main_arg0 : FVec F S128x256x1024 .f32) (main_arg1 : FVec F S128x1024 .f32) (main_arg2 : IVec S128 32) : IVec S_ 1 :=
  let main_v0 : FVec F S128x256x1024 .f32 := Host.absf main_arg0
  let main_cst : FVec F S_ .f32 := constant S_ .f32 0x7F800000#32
  let main_v1 : FVec F S128x256x1024 .f32 := broadcastInDim S128x256x1024 ![] bcast_S_S128x256x1024 main_cst
  let main_v2 : IVec S128x256x1024 1 := cmpf .olt main_v0 main_v1
  let main_c : IVec S_ 1 := constantI S_ 1 1#1
  let main_v3 : IVec S_ 1 := (fun x v => Host.reduce IntOp.andi x v reducesTo_S128x256x1024_S_d0_1_2 h_S_) main_v2 main_c
  let main_v4 : FVec F S128x1024 .f32 := Host.absf main_arg1
  let main_cst_0 : FVec F S_ .f32 := constant S_ .f32 0x7F800000#32
  let main_v5 : FVec F S128x1024 .f32 := broadcastInDim S128x1024 ![] bcast_S_S128x1024 main_cst_0
  let main_v6 : IVec S128x1024 1 := cmpf .olt main_v4 main_v5
  let main_c_1 : IVec S_ 1 := constantI S_ 1 1#1
  let main_v7 : IVec S_ 1 := (fun x v => Host.reduce IntOp.andi x v reducesTo_S128x1024_S_d0_1 h_S_) main_v6 main_c_1
  let main_v8 : IVec S_ 1 := andi main_v3 main_v7
  main_v8
-- ==== Kernel.lean ====
abbrev S128x256x1024 : Shape := ⟨3, ![128, 256, 1024]⟩
abbrev S128x1024 : Shape := ⟨2, ![128, 1024]⟩
abbrev S128 : Shape := ⟨1, ![128]⟩
abbrev S_ : Shape := ⟨0, ![]⟩
abbrev S128x1 : Shape := ⟨2, ![128, 1]⟩
abbrev S128x2 : Shape := ⟨2, ![128, 2]⟩
abbrev S8x1024 : Shape := ⟨2, ![8, 1024]⟩
abbrev S8x128x1024 : Shape := ⟨3, ![8, 128, 1024]⟩
abbrev S8x1x1024 : Shape := ⟨3, ![8, 1, 1024]⟩

abbrev nBuf : Space → Nat
  | .hbm => 53
  | .vmem => 6
  | .smem => 0
  | _ => 0

abbrev bufTy : (tb : Table) → Fin (tcTables nBuf tb) → BufTy
  | .hbm, ⟨0, _⟩ => ⟨S128x256x1024, .f32⟩
  | .hbm, ⟨1, _⟩ => ⟨S128x1024, .f32⟩
  | .hbm, ⟨2, _⟩ => ⟨S128, .i32⟩
  | .hbm, ⟨3, _⟩ => ⟨S_, .f32⟩
  | .hbm, ⟨4, _⟩ => ⟨S128x1024, .f32⟩
  | .hbm, ⟨5, _⟩ => ⟨S128x1024, .i1⟩
  | .hbm, ⟨6, _⟩ => ⟨S128x1024, .f32⟩
  | .hbm, ⟨7, _⟩ => ⟨S_, .f32⟩
  | .hbm, ⟨8, _⟩ => ⟨S128x1024, .f32⟩
  | .hbm, ⟨9, _⟩ => ⟨S128x1024, .i1⟩
  | .hbm, ⟨10, _⟩ => ⟨S_, .i1⟩
  | .hbm, ⟨11, _⟩ => ⟨S128, .i1⟩
  | .hbm, ⟨12, _⟩ => ⟨S128, .i32⟩
  | .hbm, ⟨13, _⟩ => ⟨S_, .i32⟩
  | .hbm, ⟨14, _⟩ => ⟨S128, .i32⟩
  | .hbm, ⟨15, _⟩ => ⟨S128, .i1⟩
  | .hbm, ⟨16, _⟩ => ⟨S_, .i32⟩
  | .hbm, ⟨17, _⟩ => ⟨S128, .i32⟩
  | .hbm, ⟨18, _⟩ => ⟨S128, .i32⟩
  | .hbm, ⟨19, _⟩ => ⟨S128, .i32⟩
  | .hbm, ⟨20, _⟩ => ⟨S_, .i32⟩
  | .hbm, ⟨21, _⟩ => ⟨S128, .i32⟩
  | .hbm, ⟨22, _⟩ => ⟨S128, .i1⟩
  | .hbm, ⟨23, _⟩ => ⟨S_, .i32⟩
  | .hbm, ⟨24, _⟩ => ⟨S128, .i32⟩
  | .hbm, ⟨25, _⟩ => ⟨S128, .i32⟩
  | .hbm, ⟨26, _⟩ => ⟨S128, .i32⟩
  | .hbm, ⟨27, _⟩ => ⟨S128x1, .i32⟩
  | .hbm, ⟨28, _⟩ => ⟨S128x1, .i32⟩
  | .hbm, ⟨29, _⟩ => ⟨S128x2, .i32⟩
  | .hbm, ⟨30, _⟩ => ⟨S128, .f32⟩
  | .hbm, ⟨31, _⟩ => ⟨S_, .f32⟩
  | .hbm, ⟨32, _⟩ => ⟨S128, .f32⟩
  | .hbm, ⟨33, _⟩ => ⟨S128, .f32⟩
  | .hbm, ⟨34, _⟩ => ⟨S_, .i32⟩
  | .hbm, ⟨35, _⟩ => ⟨S128, .i32⟩
  | .hbm, ⟨36, _⟩ => ⟨S128, .i1⟩
  | .hbm, ⟨37, _⟩ => ⟨S_, .i32⟩
  | .hbm, ⟨38, _⟩ => ⟨S128, .i32⟩
  | .hbm, ⟨39, _⟩ => ⟨S128, .i32⟩
  | .hbm, ⟨40, _⟩ => ⟨S128, .i32⟩
  | .hbm, ⟨41, _⟩ => ⟨S_, .i32⟩
  | .hbm, ⟨42, _⟩ => ⟨S128, .i32⟩
  | .hbm, ⟨43, _⟩ => ⟨S128, .i1⟩
  | .hbm, ⟨44, _⟩ => ⟨S_, .i32⟩
  | .hbm, ⟨45, _⟩ => ⟨S128, .i32⟩
  | .hbm, ⟨46, _⟩ => ⟨S128, .i32⟩
  | .hbm, ⟨47, _⟩ => ⟨S128, .i32⟩
  | .hbm, ⟨48, _⟩ => ⟨S128x1, .i32⟩
  | .hbm, ⟨49, _⟩ => ⟨S128x1, .i32⟩
  | .hbm, ⟨50, _⟩ => ⟨S128x2, .i32⟩
  | .hbm, ⟨51, _⟩ => ⟨S128x1024, .f32⟩
  | .hbm, ⟨52, _⟩ => ⟨S128x256x1024, .f32⟩
  | .local _ .vmem, ⟨0, _⟩ => ⟨S8x1024, .f32⟩
  | .local _ .vmem, ⟨1, _⟩ => ⟨S8x1024, .f32⟩
  | .local _ .vmem, ⟨2, _⟩ => ⟨S8x128x1024, .f32⟩
  | .local _ .vmem, ⟨3, _⟩ => ⟨S8x128x1024, .f32⟩
  | .local _ .vmem, ⟨4, _⟩ => ⟨S8x128x1024, .f32⟩
  | .local _ .vmem, ⟨5, _⟩ => ⟨S8x128x1024, .f32⟩
  | _, _ => ⟨S128x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_c_1 : Ref sig .tc := ⟨.hbm, 13, rfl⟩
abbrev main_v7 : Ref sig .tc := ⟨.hbm, 14, rfl⟩
abbrev main_v8 : Ref sig .tc := ⟨.hbm, 15, rfl⟩
abbrev main_c_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c_3 : Ref sig .tc := ⟨.hbm, 20, rfl⟩
abbrev main_v12 : Ref sig .tc := ⟨.hbm, 21, rfl⟩
abbrev main_v13 : Ref sig .tc := ⟨.hbm, 22, rfl⟩
abbrev main_c_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_5 : Ref sig .tc := ⟨.hbm, 31, rfl⟩
abbrev main_v21 : Ref sig .tc := ⟨.hbm, 32, rfl⟩
abbrev main_v22 : Ref sig .tc := ⟨.hbm, 33, rfl⟩
abbrev main_c_6 : Ref sig .tc := ⟨.hbm, 34, rfl⟩
abbrev main_v23 : Ref sig .tc := ⟨.hbm, 35, rfl⟩
abbrev main_v24 : Ref sig .tc := ⟨.hbm, 36, rfl⟩
abbrev main_c_7 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_c_8 : Ref sig .tc := ⟨.hbm, 41, rfl⟩
abbrev main_v28 : Ref sig .tc := ⟨.hbm, 42, rfl⟩
abbrev main_v29 : Ref sig .tc := ⟨.hbm, 43, rfl⟩
abbrev main_c_9 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S8x128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  bcast_S_S128x1024 : S_.BroadcastsInDim S128x1024 (![] : Fin 0 → Fin S128x1024.rank)
  reducesTo_S128x1024_S128_d1 : S128x1024.ReducesTo [1] S128
  h_S_ : 0 < S_.numel
  bcast_S_S128 : S_.BroadcastsInDim S128 (![] : Fin 0 → Fin S128.rank)
  bcast_S128_S128x1_0 : S128.BroadcastsInDim S128x1 (![0] : Fin 1 → Fin S128x1.rank)
  concatenates_S128x1_S128x1_S128x2_d1 : Shape.Concatenates [S128x1, S128x1] S128x2 1
  inb_S8x1024_S8x1024_0_0 : ∀ a, (![0, 0] : Fin 2 → Nat) a + S8x1024.size a ≤ S8x1024.size a
  h_S8x1024 : 0 < S8x1024.numel
  shapeCasts_S8x1024_S8x1024 : S8x1024.ShapeCasts S8x1024
  shapeCasts_S8x1024_S8x1x1024 : S8x1024.ShapeCasts S8x1x1024
  shapeCasts_S8x1x1024_S8x1x1024 : S8x1x1024.ShapeCasts S8x1x1024
  broadcasts_S8x1x1024_S8x128x1024 : S8x1x1024.Broadcasts S8x128x1024
  inb_S8x128x1024_S8x128x1024_0_0_0 : ∀ a, (![0, 0, 0] : Fin 3 → Nat) a + S8x128x1024.size a ≤ S8x128x1024.size a
  h_S8x128x1024 : 0 < S8x128x1024.numel
  gather_S128x1024_S128x2_S128_n_01_n_n_01_1_11_wf : GatherDims.WF S128x1024 S128x2 S128 [] [0, 1] [] [0, 1] [] 1 ![1, 1]
  scatter_S128x1024_S128x2_S128_n_01_01_1_wf : ScatterDims.WF S128x1024 S128x2 S128 [] [0, 1] [0, 1] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x1024.size a ≤ S128x1024.size a
  hwx0_0 : ∀ i : grid0.Coords, EltTy.bits .f32 = 32 ∨ (Rect.block (s := S128x1024) S8x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x128x1024.size a ≤ S128x256x1024.size a
  hwx0_1 : ∀ i : grid0.Coords, EltTy.bits .f32 = 32 ∨ (Rect.block (s := S128x256x1024) S8x128x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x128x1024.size a ≤ S128x256x1024.size a
  hwx0_2 : ∀ i : grid0.Coords, EltTy.bits .f32 = 32 ∨ (Rect.block (s := S128x256x1024) S8x128x1024.size (cc0_transform_2 i) (hinb0_2 i)).WholeWords (EltTy.packing .f32)

variable [Facts₀]

def gather_S128x1024_S128x2_S128_n_01_n_n_01_1_11 : GatherDims S128x1024 S128x2 S128 where
  offsetDims := []
  collapsedSliceDims := [0, 1]
  operandBatchingDims := []
  startIndicesBatchingDims := []
  startIndexMap := [0, 1]
  indexVectorDim := 1
  sliceSizes := ![1, 1]
  wf := gather_S128x1024_S128x2_S128_n_01_n_n_01_1_11_wf
def scatter_S128x1024_S128x2_S128_n_01_01_1 : ScatterDims S128x1024 S128x2 S128 where
  updateWindowDims := []
  insertedWindowDims := [0, 1]
  scatterDimsToOperandDims := [0, 1]
  indexVectorDim := 1
  wf := scatter_S128x1024_S128x2_S128_n_01_01_1_wf

abbrev win0_0 : Pipeline.Window sig grid0 :=
  Pipeline.Window.ofSpec (Memref.whole main_v36) S8x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S8x128x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v37) S8x128x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S128x256x1024 : Shape := ⟨3, ![128, 256, 1024]⟩
abbrev S128x1024 : Shape := ⟨2, ![128, 1024]⟩
abbrev S128 : Shape := ⟨1, ![128]⟩
abbrev S_ : Shape := ⟨0, ![]⟩
abbrev S128x1 : Shape := ⟨2, ![128, 1]⟩
abbrev S128x2 : Shape := ⟨2, ![128, 2]⟩
abbrev S128x1x1024 : Shape := ⟨3, ![128, 1, 1024]⟩

abbrev nBuf : Space → Nat
  | .hbm => 55
  | .vmem => 0
  | .smem => 0
  | _ => 0

abbrev bufTy : (tb : Table) → Fin (tcTables nBuf tb) → BufTy
  | .hbm, ⟨0, _⟩ => ⟨S128x256x1024, .f32⟩
  | .hbm, ⟨1, _⟩ => ⟨S128x1024, .f32⟩
  | .hbm, ⟨2, _⟩ => ⟨S128, .i32⟩
  | .hbm, ⟨3, _⟩ => ⟨S_, .f32⟩
  | .hbm, ⟨4, _⟩ => ⟨S128x1024, .f32⟩
  | .hbm, ⟨5, _⟩ => ⟨S128x1024, .i1⟩
  | .hbm, ⟨6, _⟩ => ⟨S128x1024, .f32⟩
  | .hbm, ⟨7, _⟩ => ⟨S_, .f32⟩
  | .hbm, ⟨8, _⟩ => ⟨S128x1024, .f32⟩
  | .hbm, ⟨9, _⟩ => ⟨S128x1024, .i1⟩
  | .hbm, ⟨10, _⟩ => ⟨S_, .i1⟩
  | .hbm, ⟨11, _⟩ => ⟨S128, .i1⟩
  | .hbm, ⟨12, _⟩ => ⟨S128, .i32⟩
  | .hbm, ⟨13, _⟩ => ⟨S_, .i32⟩
  | .hbm, ⟨14, _⟩ => ⟨S128, .i32⟩
  | .hbm, ⟨15, _⟩ => ⟨S128, .i1⟩
  | .hbm, ⟨16, _⟩ => ⟨S_, .i32⟩
  | .hbm, ⟨17, _⟩ => ⟨S128, .i32⟩
  | .hbm, ⟨18, _⟩ => ⟨S128, .i32⟩
  | .hbm, ⟨19, _⟩ => ⟨S128, .i32⟩
  | .hbm, ⟨20, _⟩ => ⟨S_, .i32⟩
  | .hbm, ⟨21, _⟩ => ⟨S128, .i32⟩
  | .hbm, ⟨22, _⟩ => ⟨S128, .i1⟩
  | .hbm, ⟨23, _⟩ => ⟨S_, .i32⟩
  | .hbm, ⟨24, _⟩ => ⟨S128, .i32⟩
  | .hbm, ⟨25, _⟩ => ⟨S128, .i32⟩
  | .hbm, ⟨26, _⟩ => ⟨S128, .i32⟩
  | .hbm, ⟨27, _⟩ => ⟨S128x1, .i32⟩
  | .hbm, ⟨28, _⟩ => ⟨S128x1, .i32⟩
  | .hbm, ⟨29, _⟩ => ⟨S128x2, .i32⟩
  | .hbm, ⟨30, _⟩ => ⟨S128, .f32⟩
  | .hbm, ⟨31, _⟩ => ⟨S_, .f32⟩
  | .hbm, ⟨32, _⟩ => ⟨S128, .f32⟩
  | .hbm, ⟨33, _⟩ => ⟨S128, .f32⟩
  | .hbm, ⟨34, _⟩ => ⟨S_, .i32⟩
  | .hbm, ⟨35, _⟩ => ⟨S128, .i32⟩
  | .hbm, ⟨36, _⟩ => ⟨S128, .i1⟩
  | .hbm, ⟨37, _⟩ => ⟨S_, .i32⟩
  | .hbm, ⟨38, _⟩ => ⟨S128, .i32⟩
  | .hbm, ⟨39, _⟩ => ⟨S128, .i32⟩
  | .hbm, ⟨40, _⟩ => ⟨S128, .i32⟩
  | .hbm, ⟨41, _⟩ => ⟨S_, .i32⟩
  | .hbm, ⟨42, _⟩ => ⟨S128, .i32⟩
  | .hbm, ⟨43, _⟩ => ⟨S128, .i1⟩
  | .hbm, ⟨44, _⟩ => ⟨S_, .i32⟩
  | .hbm, ⟨45, _⟩ => ⟨S128, .i32⟩
  | .hbm, ⟨46, _⟩ => ⟨S128, .i32⟩
  | .hbm, ⟨47, _⟩ => ⟨S128, .i32⟩
  | .hbm, ⟨48, _⟩ => ⟨S128x1, .i32⟩
  | .hbm, ⟨49, _⟩ => ⟨S128x1, .i32⟩
  | .hbm, ⟨50, _⟩ => ⟨S128x2, .i32⟩
  | .hbm, ⟨51, _⟩ => ⟨S128x1024, .f32⟩
  | .hbm, ⟨52, _⟩ => ⟨S128x1x1024, .f32⟩
  | .hbm, ⟨53, _⟩ => ⟨S128x256x1024, .f32⟩
  | .hbm, ⟨54, _⟩ => ⟨S128x256x1024, .f32⟩
  | _, _ => ⟨S128x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_c_1 : Ref sig .tc := ⟨.hbm, 13, rfl⟩
abbrev main_v7 : Ref sig .tc := ⟨.hbm, 14, rfl⟩
abbrev main_v8 : Ref sig .tc := ⟨.hbm, 15, rfl⟩
abbrev main_c_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c_3 : Ref sig .tc := ⟨.hbm, 20, rfl⟩
abbrev main_v12 : Ref sig .tc := ⟨.hbm, 21, rfl⟩
abbrev main_v13 : Ref sig .tc := ⟨.hbm, 22, rfl⟩
abbrev main_c_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_5 : Ref sig .tc := ⟨.hbm, 31, rfl⟩
abbrev main_v21 : Ref sig .tc := ⟨.hbm, 32, rfl⟩
abbrev main_v22 : Ref sig .tc := ⟨.hbm, 33, rfl⟩
abbrev main_c_6 : Ref sig .tc := ⟨.hbm, 34, rfl⟩
abbrev main_v23 : Ref sig .tc := ⟨.hbm, 35, rfl⟩
abbrev main_v24 : Ref sig .tc := ⟨.hbm, 36, rfl⟩
abbrev main_c_7 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_c_8 : Ref sig .tc := ⟨.hbm, 41, rfl⟩
abbrev main_v28 : Ref sig .tc := ⟨.hbm, 42, rfl⟩
abbrev main_v29 : Ref sig .tc := ⟨.hbm, 43, rfl⟩
abbrev main_c_9 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩

abbrev nD : Nat := 1
abbrev τ : Topo := Topo.v7x

variable {F : FTy → Type} [FloatOps F]

class Facts₀ : Prop where
  bcast_S_S128x1024 : S_.BroadcastsInDim S128x1024 (![] : Fin 0 → Fin S128x1024.rank)
  reducesTo_S128x1024_S128_d1 : S128x1024.ReducesTo [1] S128
  h_S_ : 0 < S_.numel
  bcast_S_S128 : S_.BroadcastsInDim S128 (![] : Fin 0 → Fin S128.rank)
  bcast_S128_S128x1_0 : S128.BroadcastsInDim S128x1 (![0] : Fin 1 → Fin S128x1.rank)
  concatenates_S128x1_S128x1_S128x2_d1 : Shape.Concatenates [S128x1, S128x1] S128x2 1
  bcast_S128x1024_S128x1x1024_0_2 : S128x1024.BroadcastsInDim S128x1x1024 (![0, 2] : Fin 2 → Fin S128x1x1024.rank)
  bcast_S128x1x1024_S128x256x1024_0_1_2 : S128x1x1024.BroadcastsInDim S128x256x1024 (![0, 1, 2] : Fin 3 → Fin S128x256x1024.rank)
  gather_S128x1024_S128x2_S128_n_01_n_n_01_1_11_wf : GatherDims.WF S128x1024 S128x2 S128 [] [0, 1] [] [0, 1] [] 1 ![1, 1]
  scatter_S128x1024_S128x2_S128_n_01_01_1_wf : ScatterDims.WF S128x1024 S128x2 S128 [] [0, 1] [0, 1] 1

variable [Facts₀]

def gather_S128x1024_S128x2_S128_n_01_n_n_01_1_11 : GatherDims S128x1024 S128x2 S128 where
  offsetDims := []
  collapsedSliceDims := [0, 1]
  operandBatchingDims := []
  startIndicesBatchingDims := []
  startIndexMap := [0, 1]
  indexVectorDim := 1
  sliceSizes := ![1, 1]
  wf := gather_S128x1024_S128x2_S128_n_01_n_n_01_1_11_wf
def scatter_S128x1024_S128x2_S128_n_01_01_1 : ScatterDims S128x1024 S128x2 S128 where
  updateWindowDims := []
  insertedWindowDims := [0, 1]
  scatterDimsToOperandDims := [0, 1]
  indexVectorDim := 1
  wf := scatter_S128x1024_S128x2_S128_n_01_01_1_wf

class Facts : Prop extends Facts₀ where

variable [Facts]
-- ==== Proof.HostMask.lean ====
/-
  The dropout mask with its "never drop a whole row" correction, as ONE function of the noise array and the fallback
  columns. Both programs compute it on the host by the same operations, in the same order, from the same literals; the
  certificate names it once and never looks inside: whatever this function is, both sides multiply it into `z`.

  In words, for a row `b` and a feature `d`:
    keep (b, d)   = 1 if noise (b, d) < 0.8 (the literal 0x3F4CCCCD), else 0;
    dropped b     = every keep (b, ·) equals 0;
    col b         = the fallback column of row `b`, a negative one counted from the end (+ 1024);
    picked b      = keep at (b, col b), read as the host's gather reads it;
    the mask      = keep with entry (b, col b) overwritten by (1 if dropped b, else picked b), as the host's scatter
                    writes it (an out-of-range pair writes nothing).
-/
import proofs.«117329_j65412351918511_1_alg».proof.ReferenceIdeal
import proofs.«117329_j65412351918511_1_alg».proof.Proof.Gen.ReferenceIdeal

noncomputable section

namespace Cert.HostMask

open Cert.ReferenceIdeal Cert.ReferenceIdeal.Gen Idealize.ShloMosaic

variable {F : FTy → Type} [FloatOps F]

/-- The mask the host builds from the noise and the fallback columns (see the header). -/
def hostMask (noise : FVec F S128x1024 .f32) (cols : IVec S128 32) : FVec F S128x1024 .f32 :=
  -- 1 where the noise is below 0.8, else 0
  let keep : FVec F S128x1024 .f32 :=
    uitofp .f32 (cmpf .olt noise (broadcastInDim S128x1024 ![] bcast_S_S128x1024 (constant (F := F) S_ .f32 0x3F4CCCCD#32)))
  -- row by row: is every entry 0?
  let dropped : IVec S128 1 :=
    Host.reduce IntOp.andi
      (cmpf .oeq keep (broadcastInDim S128x1024 ![] bcast_S_S128x1024 (constant (F := F) S_ .f32 0x00000000#32)))
      (constantI S_ 1 1#1) reducesTo_S128x1024_S128_d1 h_S_
  -- the row numbers 0 … 127 (a negative one would count from the end)
  let rowIx : IVec S128 32 :=
    select (cmpi .slt (iotaInDim S128 32 0) (broadcastInDim S128 ![] bcast_S_S128 (constantI S_ 32 0#32)))
      (addi (iotaInDim S128 32 0) (broadcastInDim S128 ![] bcast_S_S128 (constantI S_ 32 128#32))) (iotaInDim S128 32 0)
  -- the fallback columns, a negative one counted from the end
  let colIx : IVec S128 32 :=
    select (cmpi .slt cols (broadcastInDim S128 ![] bcast_S_S128 (constantI S_ 32 0#32)))
      (addi cols (broadcastInDim S128 ![] bcast_S_S128 (constantI S_ 32 1024#32))) cols
  -- the pairs (row, column), one per row
  let pairs : IVec S128x2 32 :=
    concatenate S128x2 1 [⟨S128x1, (broadcastInDim S128x1 ![0] bcast_S128_S128x1_0 rowIx)⟩,
      ⟨S128x1, (broadcastInDim S128x1 ![0] bcast_S128_S128x1_0 colIx)⟩] concatenates_S128x1_S128x1_S128x2_d1
  -- what each row keeps at its fallback column
  let picked : FVec F S128 .f32 := Host.gather gather_S128x1024_S128x2_S128_n_01_n_n_01_1_11 keep pairs
  -- 1 for a row that dropped everything, else what was there
  let forced : FVec F S128 .f32 :=
    select dropped (broadcastInDim S128 ![] bcast_S_S128 (constant (F := F) S_ .f32 0x3F800000#32)) picked
  Host.scatter scatter_S128x1024_S128x2_S128_n_01_01_1 (fun _ b => b) keep pairs forced

end Cert.HostMask

end
-- ==== Proof.MaskedProduct.lean ====
/-
  The function both programs compute. A mask `M` of shape [128, 1024] (one entry per batch row `b` and feature `d`) is
  spread over the middle axis of `z : [128, 256, 1024]` and multiplied in, entry by entry:

      out (b, r, d) = M (b, d) · z (b, r, d).

  The mask is the left factor and `z` the right one on both sides of the certificate, so the two programs are compared
  as the SAME product: no law of the extended reals (commutativity included) is used, and nothing has to be finite.
-/
import Idealize.ShloMosaic.PureOps
import Idealize.ShloMosaic.Lib.ValueIdx

noncomputable section

namespace Cert.MaskedProduct

open Idealize.ShloMosaic Idealize.ShloMosaic.ValueIdx

/-- The mask's shape: batch rows by features. -/
abbrev SMask : Shape := ⟨2, ![128, 1024]⟩
/-- The shape of `z` and of the result: batch rows, middle positions, features. -/
abbrev SOut : Shape := ⟨3, ![128, 256, 1024]⟩

/-- The mask entry that multiplies entry `i = (b, r, d)` of `z`: row `b`, feature `d`; the middle position `r` is
    forgotten. -/
abbrev maskAt (i : SOut.Idx) : SMask.Idx := ix2 (i 0) (i 2)

variable {F : FTy → Type} [FloatOps F]

/-- The masked product: entry `(b, r, d)` is `M (b, d) · z (b, r, d)`, the mask on the left. -/
def maskedProduct (M : SMask.Idx → Elt F .f32) (z : SOut.Idx → Elt F .f32) : SOut.Idx → Elt F .f32 :=
  fun i => FloatOps.mulf (M (maskAt i)) (z i)

theorem maskedProduct_apply (M : SMask.Idx → Elt F .f32) (z : SOut.Idx → Elt F .f32) (i : SOut.Idx) :
    maskedProduct M z i = FloatOps.mulf (M (maskAt i)) (z i) := rfl

end Cert.MaskedProduct

end
-- ==== Proof.LibConcatCongr.lean ====
/-
  A congruence rule for a concatenation of two pieces. `concatenate t a [⟨s₁, x⟩, ⟨s₂, y⟩] h` takes its pieces as a list of
  (shape, array) pairs, and the evidence `h` that the pieces' shapes join to `t` speaks of that list; the simplifier
  therefore does not rewrite inside the list on its own, and a term such as "the concatenation of what two earlier host
  operations left" keeps those two operands unevaluated. With the rule below tagged as a local congruence rule
  (`attribute [local congr] concatenate_pair_congr in …`) the simplifier rewrites both pieces, the shapes and the evidence
  staying as they are.
-/
import Idealize.ShloMosaic.PureOps

noncomputable section

namespace Idealize.ShloMosaic

/-- Two concatenations of two pieces of the same shapes along the same axis are equal when the pieces are: the rule by
    which the simplifier rewrites the pieces of a two-piece `concatenate` in place. -/
theorem concatenate_pair_congr {α : Type} {t : Shape} {a : Fin t.rank} {s₁ s₂ : Shape}
    {x x' : s₁.Idx → α} {y y' : s₂.Idx → α} {h : Shape.Concatenates [s₁, s₂] t a} (hx : x = x') (hy : y = y') :
    concatenate t a [⟨s₁, x⟩, ⟨s₂, y⟩] h = concatenate t a [⟨s₁, x'⟩, ⟨s₂, y'⟩] h := by
  subst hx hy; rfl

end Idealize.ShloMosaic

end
-- ==== Proof.KernelValue.lean ====
/-
  What the kernel computes, read off its run. The grid has 16 × 2 points; point `(p, q)` fetches rows `8p … 8p+7` of the
  mask (block `(p, 0)` of [128, 1024]) and the slab of `z` with rows `8p … 8p+7` and middle positions `128q … 128q+127`
  (block `(p, q, 0)` of [128, 256, 1024]), and writes back the same slab of the output. Inside a slab the body's result
  at `(y0, y1, y2)` is  mask block (y0, y2) · z block (y0, y1, y2)  (the generated `canon2_eq`). Row `8p + y0` of the
  mask block is row `8p + y0` of the mask, so each slab written back is that slab of the masked product of the WHOLE
  arrays; the 32 slabs tile the output, so the output array ends at the masked product. The mask the region finds in its
  window is the host's mask of the two arguments (the 49 host operations before the region), and `z` is as launched.
-/
import proofs.«117329_j65412351918511_1_alg».proof.Proof.Gen.KernelIdeal.Value
import proofs.«117329_j65412351918511_1_alg».proof.Proof.HostMask
import proofs.«117329_j65412351918511_1_alg».proof.Proof.MaskedProduct
import proofs.«117329_j65412351918511_1_alg».proof.Proof.LibConcatCongr
import Idealize.ShloMosaic.Lib.StableHlo.Run
import Idealize.ShloMosaic.Lib.Pipeline.Value

noncomputable section

namespace Cert.KernelValue

open Cert.KernelIdeal Cert.KernelIdeal.Gen Idealize.ShloMosaic Idealize.ShloMosaic.TcCoe Idealize.SL.Sem
open Idealize.ShloMosaic.Pipeline (Dat)
open Cert.HostMask Cert.MaskedProduct

variable {F : FTy → Type} [FloatOps F]
variable (m : (ℓ : Loc nD τ sig) → Buf (Elt F) ℓ) (ρ : Dev nD → PrngReg)

/-! ## The blocks' places -/

theorem zero2 : (![0, 0] : Fin 2 → Nat) = fun _ => 0 := funext fun a => by fin_cases a <;> rfl
theorem zero3 : (![0, 0, 0] : Fin 3 → Nat) = fun _ => 0 := funext fun a => by fin_cases a <;> rfl

/-- The three index maps at a point, decided over the 32 points: the mask's block is the output's on the row axis and
    the first (only) block of columns; the block of `z` is the output's on every axis; the output's block indices are a
    row block below 16, a middle block below 2, and the one block of features. -/
theorem block_places : ∀ t : Fin cfg0.N,
    win0_0.index t (0 : Fin 2) = win0_2.index t (0 : Fin 3)
    ∧ win0_0.index t (1 : Fin 2) = 0
    ∧ win0_1.index t (0 : Fin 3) = win0_2.index t (0 : Fin 3)
    ∧ win0_1.index t (1 : Fin 3) = win0_2.index t (1 : Fin 3)
    ∧ win0_1.index t (2 : Fin 3) = win0_2.index t (2 : Fin 3)
    ∧ win0_2.index t (0 : Fin 3) ≤ 15
    ∧ win0_2.index t (1 : Fin 3) ≤ 1
    ∧ win0_2.index t (2 : Fin 3) = 0 :=
  (by decide +kernel : ∀ t : Fin grid0.N, _)

/-- Every (row block, middle block) is some point's output block. -/
theorem block_of : ∀ (p : Fin 16) (q : Fin 2), ∃ t : Fin cfg0.N, win0_2.index t = ![p.val, q.val, 0] :=
  (by decide +kernel : ∀ (p : Fin 16) (q : Fin 2), ∃ t : Fin grid0.N, win0_2.index t = ![p.val, q.val, 0])

/-! ## One slab -/

/-- WHAT POINT `t` WRITES BACK is its slab of the masked product of the mask and `z` as the region finds them. -/
theorem flushed_eq (c : Dev nD) (t : Fin cfg0.N) :
    (dats m 0 c).flushed 2 t
      = ((cfg0.win 2).blk t).view.read (Elt F) (maskedProduct (F := F) (V m c main_v36) (V m c main_arg0)) := by
  rw [Cert.KernelIdeal.Value.flushed2]
  unfold out0_2
  simp only [View.ld_unit_zero (S := S8x1024) zero2, View.ld_unit_zero (S := S8x128x1024) zero3]
  obtain ⟨e0, e1, e2, e3, e4, -, -, e7⟩ := block_places t
  funext j
  refine (Cert.KernelIdeal.Value.canon2_eq (iblk m c 0 t) (iblk m c 1 t) j).trans ?_
  have hj0 : (j 0).val < 8 := (j 0).isLt
  have hj1 : (j 1).val < 128 := (j 1).isLt
  have hj2 : (j 2).val < 1024 := (j 2).isLt
  show FloatOps.mulf (V m c main_v36 (((cfg0.win 0).blk t).view.emb (Cert.KernelIdeal.Value.ix2_0 j)))
        (V m c main_arg0 (((cfg0.win 1).blk t).view.emb (Cert.KernelIdeal.Value.ix2_1 j)))
      = FloatOps.mulf (V m c main_v36 (maskAt (((cfg0.win 2).blk t).view.emb j)))
        (V m c main_arg0 (((cfg0.win 2).blk t).view.emb j))
  -- the mask's entry: row (block row) · 8 + j0, feature j2
  have h0 : ((cfg0.win 0).blk t).view.emb (Cert.KernelIdeal.Value.ix2_0 j) = maskAt (((cfg0.win 2).blk t).view.emb j) := by
    funext a; apply Fin.ext
    match a with
    | ⟨0, _⟩ => show win0_0.index t (0 : Fin 2) * 8 + 1 * (j 0).val = win0_2.index t (0 : Fin 3) * 8 + 1 * (j 0).val; omega
    | ⟨1, _⟩ => show win0_0.index t (1 : Fin 2) * 1024 + 1 * (j 2).val = win0_2.index t (2 : Fin 3) * 1024 + 1 * (j 2).val; omega
  -- the entry of z: the same place in the same slab
  have h1 : ((cfg0.win 1).blk t).view.emb (Cert.KernelIdeal.Value.ix2_1 j) = ((cfg0.win 2).blk t).view.emb j := by
    funext a; apply Fin.ext
    match a with
    | ⟨0, _⟩ => show win0_1.index t (0 : Fin 3) * 8 + 1 * (j 0).val = win0_2.index t (0 : Fin 3) * 8 + 1 * (j 0).val; omega
    | ⟨1, _⟩ => show win0_1.index t (1 : Fin 3) * 128 + 1 * (j 1).val = win0_2.index t (1 : Fin 3) * 128 + 1 * (j 1).val; omega
    | ⟨2, _⟩ => show win0_1.index t (2 : Fin 3) * 1024 + 1 * (j 2).val = win0_2.index t (2 : Fin 3) * 1024 + 1 * (j 2).val; omega
  rw [h0, h1]

/-! ## The slabs tile the output -/

/-- An index of the output is in point `t`'s slab iff each coordinate is in the slab's range on its axis. -/
theorem mem_slab (t : Fin cfg0.N) (i : S128x256x1024.Idx) :
    i ∈ ((cfg0.win 2).blk t).view.set ↔ ∀ a : Fin 3, win0_2.index t a * S8x128x1024.size a ≤ (i a).val
      ∧ (i a).val < win0_2.index t a * S8x128x1024.size a + S8x128x1024.size a := by
  show i ∈ ((View.whole main_v37).slice (win0_2.rect t)).set ↔ _
  rw [View.set_slice_whole, Rect.mem_set_unit]
  exact Iff.rfl

/-- Every index of the output lies in the slab of the point whose row block is `i0 / 8` and middle block `i1 / 128`,
    and every point writes its slab back. -/
theorem covered (i : S128x256x1024.Idx) :
    ∃ t : Fin cfg0.N, (cfg0.win 2).flush t = true ∧ i ∈ ((cfg0.win 2).blk t).view.set := by
  have hi0 : (i 0).val < 128 := (i 0).isLt
  have hi1 : (i 1).val < 256 := (i 1).isLt
  have hi2 : (i 2).val < 1024 := (i 2).isLt
  obtain ⟨t, ht⟩ := block_of ⟨(i 0).val / 8, by omega⟩ ⟨(i 1).val / 128, by omega⟩
  have q0 : win0_2.index t (0 : Fin 3) = (i 0).val / 8 := congrFun ht 0
  have q1 : win0_2.index t (1 : Fin 3) = (i 1).val / 128 := congrFun ht 1
  have q2 : win0_2.index t (2 : Fin 3) = 0 := congrFun ht 2
  refine ⟨t, flush0_2 t, ?_⟩
  rw [mem_slab]
  intro a
  match a with
  | ⟨0, _⟩ => show win0_2.index t (0 : Fin 3) * 8 ≤ (i 0).val ∧ (i 0).val < win0_2.index t (0 : Fin 3) * 8 + 8; omega
  | ⟨1, _⟩ => show win0_2.index t (1 : Fin 3) * 128 ≤ (i 1).val ∧ (i 1).val < win0_2.index t (1 : Fin 3) * 128 + 128; omega
  | ⟨2, _⟩ => show win0_2.index t (2 : Fin 3) * 1024 ≤ (i 2).val ∧ (i 2).val < win0_2.index t (2 : Fin 3) * 1024 + 1024; omega

/-- THE OUTPUT ARRAY after the run is the masked product of the mask and `z` as the region finds them. -/
theorem final (c : Dev nD) :
    (dats m 0 c).arrAt 2 cfg0.N = maskedProduct (F := F) (V m c main_v36) (V m c main_arg0) :=
  (dats m 0 c).arrAt_eq_of_cover 2 (maskedProduct (F := F) (V m c main_v36) (V m c main_arg0))
    (fun t _ => flushed_eq m c t) covered

/-! ## The mask the region finds -/

set_option maxRecDepth 16384 in
set_option maxHeartbeats 2000000 in
attribute [local congr] concatenate_pair_congr in
/-- The 49 host operations before the region leave, in the mask's buffer, the host's mask of the noise and the fallback
    columns as launched: each operation's result is its function of its operands' contents, the (row, column) pairs —
    a concatenation of two columns — included. -/
theorem mask_entry (c : Dev nD) :
    (V m c main_v36 : S128x1024.Idx → Elt F .f32)
      = hostMask (F := F) (m ((c : Thread nD τ).loc main_arg1)) (m ((c : Thread nD τ).loc main_arg2)) := by
  dsimp only [V]
  simp only [hostOps0, hostOps0_1, hostOps0_2, List.flatten_cons, List.flatten_nil, List.append_nil, List.cons_append,
    List.nil_append]
  -- every operation's result as its function of its operands' contents
  after_results_simp
  -- the same operations, spelt once: the call's typed references carry their contents unchanged, and the scatter's
  -- operands agree one by one
  unfold hostMask
  dsimp only [StableHlo.TRef.toBuf, StableHlo.TRef.ofBuf, cast_eq]
  congr 1

/-! ## The run -/

/-- On every device, from any memory with zero counters: every weakly fair execution of the kernel's program terminates
    with its result at the masked product of the host's mask and `z`, and its three arguments as launched. -/
theorem run : θ_run defs (onTc (τ := τ) (main (F := F))) ⟨m, fun _ => 0, ρ⟩ fun r => ∀ c : Dev nD,
      r.2.mem ((c : Thread nD τ).loc main_v37)
        = maskedProduct (hostMask (F := F) (m ((c : Thread nD τ).loc main_arg1)) (m ((c : Thread nD τ).loc main_arg2)))
            (m ((c : Thread nD τ).loc main_arg0))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans ((final m c).trans (by rw [mask_entry m c, V_main_arg0 m c])), (h c).2⟩)
    (Cert.KernelIdeal.Value.run_blocks m ρ)

end Cert.KernelValue

end
-- ==== Proof.ReferenceRun.lean ====
/-
  What the reference computes, read off its run. Its host program is a straight line of 52 operations (the one operation
  of the function it calls standing in the call's place): 49 of them build the mask (`HostMask.hostMask` of the noise
  and the fallback columns), two spread the mask over the middle axis ([128, 1024] → [128, 1, 1024] → [128, 256, 1024]),
  and the last multiplies the spread mask, on the left, into `z`. So the result is the masked product of the mask and
  `z` (`MaskedProduct.maskedProduct`), and the three arguments end as they began.
-/
import proofs.«117329_j65412351918511_1_alg».proof.Proof.HostMask
import proofs.«117329_j65412351918511_1_alg».proof.Proof.MaskedProduct
import proofs.«117329_j65412351918511_1_alg».proof.Proof.LibConcatCongr
import Idealize.ShloMosaic.Lib.StableHlo.Run
import Idealize.ShloMosaic.Lib.Pipeline.Value

noncomputable section

namespace Cert.ReferenceRun

open Cert.ReferenceIdeal Cert.ReferenceIdeal.Gen Idealize.ShloMosaic Idealize.ShloMosaic.TcCoe Idealize.SL.Sem Idealize.ShloMosaic.StableHlo
open Cert.HostMask Cert.MaskedProduct

variable {F : FTy → Type} [FloatOps F]

/-- The reference's 52 host operations, in program order. -/
abbrev ops : List (HloOp τ sig (Elt F)) :=
  [ nullary main_cst (constant S_ .f32 0x3F4CCCCD#32),
    unary main_cst main_v0 (broadcastInDim S128x1024 ![] bcast_S_S128x1024 : (⟨S_, .f32⟩ : BufTy).Contents (Elt F) → (⟨S128x1024, .f32⟩ : BufTy).Contents (Elt F)),
    binary main_arg1 main_v0 main_v1 (cmpf .olt : (⟨S128x1024, .f32⟩ : BufTy).Contents (Elt F) → (⟨S128x1024, .f32⟩ : BufTy).Contents (Elt F) → (⟨S128x1024, .i1⟩ : BufTy).Contents (Elt F)),
    unary main_v1 main_v2 (uitofp .f32 : (⟨S128x1024, .i1⟩ : BufTy).Contents (Elt F) → (⟨S128x1024, .f32⟩ : BufTy).Contents (Elt F)),
    nullary main_cst_0 (constant S_ .f32 0x00000000#32),
    unary main_cst_0 main_v3 (broadcastInDim S128x1024 ![] bcast_S_S128x1024 : (⟨S_, .f32⟩ : BufTy).Contents (Elt F) → (⟨S128x1024, .f32⟩ : BufTy).Contents (Elt F)),
    binary main_v2 main_v3 main_v4 (cmpf .oeq : (⟨S128x1024, .f32⟩ : BufTy).Contents (Elt F) → (⟨S128x1024, .f32⟩ : BufTy).Contents (Elt F) → (⟨S128x1024, .i1⟩ : BufTy).Contents (Elt F)),
    nullary main_c (constantI S_ 1 1#1),
    binary main_v4 main_c main_v5 ((fun x v => Host.reduce IntOp.andi x v reducesTo_S128x1024_S128_d1 h_S_) : (⟨S128x1024, .i1⟩ : BufTy).Contents (Elt F) → (⟨S_, .i1⟩ : BufTy).Contents (Elt F) → (⟨S128, .i1⟩ : BufTy).Contents (Elt F)),
    nullary main_v6 (iotaInDim S128 32 0),
    nullary main_c_1 (constantI S_ 32 0#32),
    unary main_c_1 main_v7 (broadcastInDim S128 ![] bcast_S_S128 : (⟨S_, .i32⟩ : BufTy).Contents (Elt F) → (⟨S128, .i32⟩ : BufTy).Contents (Elt F)),
    binary main_v6 main_v7 main_v8 (cmpi .slt : (⟨S128, .i32⟩ : BufTy).Contents (Elt F) → (⟨S128, .i32⟩ : BufTy).Contents (Elt F) → (⟨S128, .i1⟩ : BufTy).Contents (Elt F)),
    nullary main_c_2 (constantI S_ 32 128#32),
    unary main_c_2 main_v9 (broadcastInDim S128 ![] bcast_S_S128 : (⟨S_, .i32⟩ : BufTy).Contents (Elt F) → (⟨S128, .i32⟩ : BufTy).Contents (Elt F)),
    binary main_v6 main_v9 main_v10 (addi : (⟨S128, .i32⟩ : BufTy).Contents (Elt F) → (⟨S128, .i32⟩ : BufTy).Contents (Elt F) → (⟨S128, .i32⟩ : BufTy).Contents (Elt F)),
    ternary main_v8 main_v10 main_v6 main_v11 (select : (⟨S128, .i1⟩ : BufTy).Contents (Elt F) → (⟨S128, .i32⟩ : BufTy).Contents (Elt F) → (⟨S128, .i32⟩ : BufTy).Contents (Elt F) → (⟨S128, .i32⟩ : BufTy).Contents (Elt F)),
    nullary main_c_3 (constantI S_ 32 0#32),
    unary main_c_3 main_v12 (broadcastInDim S128 ![] bcast_S_S128 : (⟨S_, .i32⟩ : BufTy).Contents (Elt F) → (⟨S128, .i32⟩ : BufTy).Contents (Elt F)),
    binary main_arg2 main_v12 main_v13 (cmpi .slt : (⟨S128, .i32⟩ : BufTy).Contents (Elt F) → (⟨S128, .i32⟩ : BufTy).Contents (Elt F) → (⟨S128, .i1⟩ : BufTy).Contents (Elt F)),
    nullary main_c_4 (constantI S_ 32 1024#32),
    unary main_c_4 main_v14 (broadcastInDim S128 ![] bcast_S_S128 : (⟨S_, .i32⟩ : BufTy).Contents (Elt F) → (⟨S128, .i32⟩ : BufTy).Contents (Elt F)),
    binary main_arg2 main_v14 main_v15 (addi : (⟨S128, .i32⟩ : BufTy).Contents (Elt F) → (⟨S128, .i32⟩ : BufTy).Contents (Elt F) → (⟨S128, .i32⟩ : BufTy).Contents (Elt F)),
    ternary main_v13 main_v15 main_arg2 main_v16 (select : (⟨S128, .i1⟩ : BufTy).Contents (Elt F) → (⟨S128, .i32⟩ : BufTy).Contents (Elt F) → (⟨S128, .i32⟩ : BufTy).Contents (Elt F) → (⟨S128, .i32⟩ : BufTy).Contents (Elt F)),
    unary main_v11 main_v17 (broadcastInDim S128x1 ![0] bcast_S128_S128x1_0 : (⟨S128, .i32⟩ : BufTy).Contents (Elt F) → (⟨S128x1, .i32⟩ : BufTy).Contents (Elt F)),
    unary main_v16 main_v18 (broadcastInDim S128x1 ![0] bcast_S128_S128x1_0 : (⟨S128, .i32⟩ : BufTy).Contents (Elt F) → (⟨S128x1, .i32⟩ : BufTy).Contents (Elt F)),
    binary main_v17 main_v18 main_v19 ((fun a b => concatenate S128x2 1 [⟨S128x1, a⟩, ⟨S128x1, b⟩] concatenates_S128x1_S128x1_S128x2_d1) : (⟨S128x1, .i32⟩ : BufTy).Contents (Elt F) → (⟨S128x1, .i32⟩ : BufTy).Contents (Elt F) → (⟨S128x2, .i32⟩ : BufTy).Contents (Elt F)),
    binary main_v2 main_v19 main_v20 ((fun x i => Host.gather gather_S128x1024_S128x2_S128_n_01_n_n_01_1_11 x i) : (⟨S128x1024, .f32⟩ : BufTy).Contents (Elt F) → (⟨S128x2, .i32⟩ : BufTy).Contents (Elt F) → (⟨S128, .f32⟩ : BufTy).Contents (Elt F)),
    nullary main_cst_5 (constant S_ .f32 0x3F800000#32),
    unary main_cst_5 main_v21 (broadcastInDim S128 ![] bcast_S_S128 : (⟨S_, .f32⟩ : BufTy).Contents (Elt F) → (⟨S128, .f32⟩ : BufTy).Contents (Elt F)),
    TRef.ternary (TRef.of (T := ⟨S128, .i1⟩) main_v5) (TRef.of (T := ⟨S128, .f32⟩) main_v21) (TRef.of (T := ⟨S128, .f32⟩) main_v20) (TRef.of (T := ⟨S128, .f32⟩) main_v22) select,
    nullary main_c_6 (constantI S_ 32 0#32),
    unary main_c_6 main_v23 (broadcastInDim S128 ![] bcast_S_S128 : (⟨S_, .i32⟩ : BufTy).Contents (Elt F) → (⟨S128, .i32⟩ : BufTy).Contents (Elt F)),
    binary main_v6 main_v23 main_v24 (cmpi .slt : (⟨S128, .i32⟩ : BufTy).Contents (Elt F) → (⟨S128, .i32⟩ : BufTy).Contents (Elt F) → (⟨S128, .i1⟩ : BufTy).Contents (Elt F)),
    nullary main_c_7 (constantI S_ 32 128#32),
    unary main_c_7 main_v25 (broadcastInDim S128 ![] bcast_S_S128 : (⟨S_, .i32⟩ : BufTy).Contents (Elt F) → (⟨S128, .i32⟩ : BufTy).Contents (Elt F)),
    binary main_v6 main_v25 main_v26 (addi : (⟨S128, .i32⟩ : BufTy).Contents (Elt F) → (⟨S128, .i32⟩ : BufTy).Contents (Elt F) → (⟨S128, .i32⟩ : BufTy).Contents (Elt F)),
    ternary main_v24 main_v26 main_v6 main_v27 (select : (⟨S128, .i1⟩ : BufTy).Contents (Elt F) → (⟨S128, .i32⟩ : BufTy).Contents (Elt F) → (⟨S128, .i32⟩ : BufTy).Contents (Elt F) → (⟨S128, .i32⟩ : BufTy).Contents (Elt F)),
    nullary main_c_8 (constantI S_ 32 0#32),
    unary main_c_8 main_v28 (broadcastInDim S128 ![] bcast_S_S128 : (⟨S_, .i32⟩ : BufTy).Contents (Elt F) → (⟨S128, .i32⟩ : BufTy).Contents (Elt F)),
    binary main_arg2 main_v28 main_v29 (cmpi .slt : (⟨S128, .i32⟩ : BufTy).Contents (Elt F) → (⟨S128, .i32⟩ : BufTy).Contents (Elt F) → (⟨S128, .i1⟩ : BufTy).Contents (Elt F)),
    nullary main_c_9 (constantI S_ 32 1024#32),
    unary main_c_9 main_v30 (broadcastInDim S128 ![] bcast_S_S128 : (⟨S_, .i32⟩ : BufTy).Contents (Elt F) → (⟨S128, .i32⟩ : BufTy).Contents (Elt F)),
    binary main_arg2 main_v30 main_v31 (addi : (⟨S128, .i32⟩ : BufTy).Contents (Elt F) → (⟨S128, .i32⟩ : BufTy).Contents (Elt F) → (⟨S128, .i32⟩ : BufTy).Contents (Elt F)),
    ternary main_v29 main_v31 main_arg2 main_v32 (select : (⟨S128, .i1⟩ : BufTy).Contents (Elt F) → (⟨S128, .i32⟩ : BufTy).Contents (Elt F) → (⟨S128, .i32⟩ : BufTy).Contents (Elt F) → (⟨S128, .i32⟩ : BufTy).Contents (Elt F)),
    unary main_v27 main_v33 (broadcastInDim S128x1 ![0] bcast_S128_S128x1_0 : (⟨S128, .i32⟩ : BufTy).Contents (Elt F) → (⟨S128x1, .i32⟩ : BufTy).Contents (Elt F)),
    unary main_v32 main_v34 (broadcastInDim S128x1 ![0] bcast_S128_S128x1_0 : (⟨S128, .i32⟩ : BufTy).Contents (Elt F) → (⟨S128x1, .i32⟩ : BufTy).Contents (Elt F)),
    binary main_v33 main_v34 main_v35 ((fun a b => concatenate S128x2 1 [⟨S128x1, a⟩, ⟨S128x1, b⟩] concatenates_S128x1_S128x1_S128x2_d1) : (⟨S128x1, .i32⟩ : BufTy).Contents (Elt F) → (⟨S128x1, .i32⟩ : BufTy).Contents (Elt F) → (⟨S128x2, .i32⟩ : BufTy).Contents (Elt F)),
    ternary main_v2 main_v35 main_v22 main_v36 ((fun x i u => Host.scatter scatter_S128x1024_S128x2_S128_n_01_01_1 (fun _ b => b) x i u) : (⟨S128x1024, .f32⟩ : BufTy).Contents (Elt F) → (⟨S128x2, .i32⟩ : BufTy).Contents (Elt F) → (⟨S128, .f32⟩ : BufTy).Contents (Elt F) → (⟨S128x1024, .f32⟩ : BufTy).Contents (Elt F)),
    unary main_v36 main_v37 (broadcastInDim S128x1x1024 ![0, 2] bcast_S128x1024_S128x1x1024_0_2 : (⟨S128x1024, .f32⟩ : BufTy).Contents (Elt F) → (⟨S128x1x1024, .f32⟩ : BufTy).Contents (Elt F)),
    unary main_v37 main_v38 (broadcastInDim S128x256x1024 ![0, 1, 2] bcast_S128x1x1024_S128x256x1024_0_1_2 : (⟨S128x1x1024, .f32⟩ : BufTy).Contents (Elt F) → (⟨S128x256x1024, .f32⟩ : BufTy).Contents (Elt F)),
    binary main_v38 main_arg0 main_v39 (mulf : (⟨S128x256x1024, .f32⟩ : BufTy).Contents (Elt F) → (⟨S128x256x1024, .f32⟩ : BufTy).Contents (Elt F) → (⟨S128x256x1024, .f32⟩ : BufTy).Contents (Elt F)) ]

set_option maxRecDepth 8192 in
/-- The reference's @main is these operations run one after the other. -/
theorem main_eq (c : Dev nD) : main (F := F) c = seq ops := rfl
/-- The reference scopes no buffer and no semaphore. -/
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
/-- Every operation touches TensorCore buffers only. -/
theorem ops_sub : (ops : List (HloOp τ sig (Elt F))).Forall fun op => op.bufs ⊆ tcRefs τ sig :=
  ⟨nullary_bufs_sub .., unary_bufs_sub .., binary_bufs_sub .., unary_bufs_sub .., nullary_bufs_sub .., unary_bufs_sub .., binary_bufs_sub .., nullary_bufs_sub .., binary_bufs_sub .., nullary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., nullary_bufs_sub .., unary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., ternary_bufs_sub .., unary_bufs_sub .., unary_bufs_sub .., binary_bufs_sub ..⟩

/-- A mask spread over the middle axis and multiplied, on the left, into `z` is the masked product: entry
    `(b, r, d)` of the spread mask is the mask's entry `(b, d)` (the first broadcast puts it at `(b, 0, d)`, the second
    repeats it along the unit axis). -/
theorem spread_mul (M : FVec F S128x1024 .f32) (z : FVec F S128x256x1024 .f32) :
    mulf (broadcastInDim S128x256x1024 ![0, 1, 2] bcast_S128x1x1024_S128x256x1024_0_1_2
      (broadcastInDim S128x1x1024 ![0, 2] bcast_S128x1024_S128x1x1024_0_2 M)) z = maskedProduct M z := by
  funext i
  show FloatOps.mulf ((broadcastInDim S128x256x1024 ![0, 1, 2] bcast_S128x1x1024_S128x256x1024_0_1_2
      (broadcastInDim S128x1x1024 ![0, 2] bcast_S128x1024_S128x1x1024_0_2 M)) i) (z i) = FloatOps.mulf (M (maskAt i)) (z i)
  -- the index of [128, 1, 1024] under `i`: the middle coordinate becomes 0
  let k : S128x1x1024.Idx := fun a => match a with
    | ⟨0, _⟩ => ⟨(i 0).val, (i 0).isLt⟩
    | ⟨1, _⟩ => ⟨0, Nat.one_pos⟩
    | ⟨2, _⟩ => ⟨(i 2).val, (i 2).isLt⟩
  have e2 : (broadcastInDim S128x256x1024 ![0, 1, 2] bcast_S128x1x1024_S128x256x1024_0_1_2
      (broadcastInDim S128x1x1024 ![0, 2] bcast_S128x1024_S128x1x1024_0_2 M)) i
      = (broadcastInDim S128x1x1024 ![0, 2] bcast_S128x1024_S128x1x1024_0_2 M) k :=
    broadcastInDim_apply _ bcast_S128x1x1024_S128x256x1024_0_1_2 _ i k (fun a => match a with
      | ⟨0, _⟩ => by show (i 0).val = if (128 : Nat) = 1 then 0 else (i 0).val; rw [if_neg (by decide)]
      | ⟨1, _⟩ => by show 0 = if (1 : Nat) = 1 then 0 else (i 1).val; rw [if_pos rfl]
      | ⟨2, _⟩ => by show (i 2).val = if (1024 : Nat) = 1 then 0 else (i 2).val; rw [if_neg (by decide)])
  have e1 : (broadcastInDim S128x1x1024 ![0, 2] bcast_S128x1024_S128x1x1024_0_2 M) k = M (maskAt i) :=
    broadcastInDim_apply _ bcast_S128x1024_S128x1x1024_0_2 M k (maskAt i) (fun a => match a with
      | ⟨0, _⟩ => by show (i 0).val = if (128 : Nat) = 1 then 0 else (i 0).val; rw [if_neg (by decide)]
      | ⟨1, _⟩ => by show (i 2).val = if (1024 : Nat) = 1 then 0 else (i 2).val; rw [if_neg (by decide)])
  rw [e2, e1]

set_option maxRecDepth 16384 in
set_option maxHeartbeats 2000000 in
attribute [local congr] concatenate_pair_congr in
/-- On every device, from any memory with zero counters: every weakly fair execution of the reference terminates with
    its result at the masked product of the host's mask and `z`, and its three arguments as launched. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v39)
        = maskedProduct (hostMask (F := F) (m ((c.tc : Thread nD τ).loc main_arg1)) (m ((c.tc : Thread nD τ).loc main_arg2)))
            (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨((h c main_v39).trans (by
          -- every operation's result as its function of its operands' contents
          after_results_simp
          -- under the product and the two broadcasts, the 49 mask operations are `hostMask` spelt out, once the
          -- call's typed references (which carry their contents unchanged) are read through
          refine congrArg (fun M : FVec F S128x1024 .f32 =>
            mulf (broadcastInDim S128x256x1024 ![0, 1, 2] bcast_S128x1x1024_S128x256x1024_0_1_2
              (broadcastInDim S128x1x1024 ![0, 2] bcast_S128x1024_S128x1x1024_0_2 M)) (m ((c.tc : Thread nD τ).loc main_arg0))) ?_
          unfold hostMask
          dsimp only [StableHlo.TRef.toBuf, StableHlo.TRef.ofBuf, cast_eq])).trans
        (spread_mul (hostMask (F := F) (m ((c.tc : Thread nD τ).loc main_arg1)) (m ((c.tc : Thread nD τ).loc main_arg2)))
          (m ((c.tc : Thread nD τ).loc main_arg0))),
      (h c main_arg0).trans (by after_results_simp <;> rfl),
      (h c main_arg1).trans (by after_results_simp <;> rfl),
      (h c main_arg2).trans (by after_results_simp <;> rfl)⟩)
    (run_seq scopedRefs_eq scopedSems_eq defs main (fun _ => ops) main_eq (fun _ => ops_sub) m ρ)

end Cert.ReferenceRun

end
-- ==== Proof.lean ====
/-
  The certificate of a masked multiply. Both programs take `z : [128, 256, 1024]`, a noise array `[128, 1024]` and one
  fallback column per row, build on the host the same dropout mask (1 where the noise is below 0.8; a row that dropped
  everything gets a 1 forced at its fallback column), and return

      out (b, r, d) = mask (b, d) · z (b, r, d).

  The kernel's program builds the mask with 49 host operations and then streams `z` through a 16 × 2 grid of slabs of
  8 rows by 128 middle positions, multiplying each slab by the 8 matching rows of the mask; the reference builds the mask
  with the same 49 operations, spreads it over the middle axis and multiplies once. The mask is the left factor on both
  sides, so at the ideal instance the two results are the same product term by term (`MaskedProduct.maskedProduct` of
  `HostMask.hostMask` of the arguments and `z`): no law of the extended reals is needed and the precondition (finite
  inputs) is never opened.

  The five claims: the kernel's program and its idealization terminate without a fault and leave their arguments as they
  were (the generated frames); so does the reference (its run, read in `ReferenceRun`, with the result dropped); the
  idealization rewrote nothing, so there is nothing to preserve; and the two idealized programs, from memories that agree
  on the arguments, both end at the masked product of one mask and one `z` (`KernelValue.run`, `ReferenceRun.run`).
-/
import proofs.«117329_j65412351918511_1_alg».proof.Defs
import proofs.«117329_j65412351918511_1_alg».proof.Proof.Gen.Kernel
import proofs.«117329_j65412351918511_1_alg».proof.Proof.Gen.Kernel.Skeleton
import proofs.«117329_j65412351918511_1_alg».proof.Proof.Gen.Kernel.Launch
import proofs.«117329_j65412351918511_1_alg».proof.Proof.Gen.Kernel.Points
import proofs.«117329_j65412351918511_1_alg».proof.Proof.Gen.Kernel.Frame
import proofs.«117329_j65412351918511_1_alg».proof.Proof.Gen.KernelIdeal
import proofs.«117329_j65412351918511_1_alg».proof.Proof.Gen.KernelIdeal.Skeleton
import proofs.«117329_j65412351918511_1_alg».proof.Proof.Gen.KernelIdeal.Launch
import proofs.«117329_j65412351918511_1_alg».proof.Proof.Gen.KernelIdeal.Points
import proofs.«117329_j65412351918511_1_alg».proof.Proof.Gen.KernelIdeal.Frame
import proofs.«117329_j65412351918511_1_alg».proof.Proof.Gen.ReferenceIdeal
import proofs.«117329_j65412351918511_1_alg».proof.Proof.Gen.Pre_finite_inputs
import proofs.«117329_j65412351918511_1_alg».proof.Proof.Gen.KernelIdeal.Value
import proofs.«117329_j65412351918511_1_alg».proof.Proof.KernelValue
import proofs.«117329_j65412351918511_1_alg».proof.Proof.ReferenceRun
import Idealize.ShloMosaic.Adequacy
import Idealize.ShloMosaic.Init

noncomputable section

namespace Cert.Proof

open Idealize.ShloMosaic Idealize.ShloMosaic.TcCoe Idealize.SL.Sem

/-- The kernel's program as printed terminates, faults nowhere and keeps its arguments. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, the result forgotten. -/
theorem frame_referenceIdeal : Cert.frame_ReferenceIdeal := fun m ρ _ =>
  (θ_run Cert.ReferenceIdeal.defs _ _).mono (fun _ h c => (h c).2) (Cert.ReferenceRun.run (F := Ideal) m ρ)

/-- The idealization changed no operation. -/
theorem preserves : Cert.preserves_Kernel_KernelIdeal := trivial

/-- From memories that agree on `z`, the noise and the fallback columns, the idealized kernel and the idealized
    reference both end at the masked product of the host's mask of (noise, columns) and `z`. -/
theorem algebraic : Cert.algebraic_KernelIdeal_ReferenceIdeal := by
  intro m ρ m' ρ' _ hagree
  refine ⟨_, Cert.KernelValue.run (F := Ideal) m ρ, ?_⟩
  refine (θ_run Cert.ReferenceIdeal.defs _ _).mono (fun _ h c => ⟨(h c).1.trans ?_, (h c).2⟩)
    (Cert.ReferenceRun.run (F := Ideal) m' ρ')
  rw [(hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
